-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x64x64 : Shape := ⟨4, ![128, 64, 64, 64]⟩
abbrev S64x4 : Shape := ⟨2, ![64, 4]⟩
abbrev S1x4 : Shape := ⟨2, ![1, 4]⟩
abbrev S64x1 : Shape := ⟨2, ![64, 1]⟩
abbrev S_ : Shape := ⟨0, ![]⟩

class Facts : Prop where
  bcast_S_S128x64x64x64 : S_.BroadcastsInDim S128x64x64x64 (![] : Fin 0 → Fin S128x64x64x64.rank)
  reducesTo_S128x64x64x64_S_d0_1_2_3 : S128x64x64x64.ReducesTo [0, 1, 2, 3] S_
  h_S_ : 0 < S_.numel
  bcast_S_S64x4 : S_.BroadcastsInDim S64x4 (![] : Fin 0 → Fin S64x4.rank)
  reducesTo_S64x4_S_d0_1 : S64x4.ReducesTo [0, 1] S_
  bcast_S_S1x4 : S_.BroadcastsInDim S1x4 (![] : Fin 0 → Fin S1x4.rank)
  reducesTo_S1x4_S_d0_1 : S1x4.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x1 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64x1 .f32 := Host.absf main_arg4
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  main_v23

def fn {F : FTy → Type} [FloatOps F] (main_arg0 : FVec F S128x64x64x64 .f32) (main_arg1 : FVec F S64x4 .f32) (main_arg2 : FVec F S1x4 .f32) (main_arg3 : FVec F S64x4 .f32) (main_arg4 : FVec F S64x1 .f32) : IVec S_ 1 :=
  let main_v0 : FVec F S128x64x64x64 .f32 := Host.absf main_arg0
  let main_cst : FVec F S_ .f32 := constant S_ .f32 0x7F800000#32
  let main_v1 : FVec F S128x64x64x64 .f32 := broadcastInDim S128x64x64x64 ![] bcast_S_S128x64x64x64 main_cst
  let main_v2 : IVec S128x64x64x64 1 := cmpf .olt main_v0 main_v1
  let main_c : IVec S_ 1 := constantI S_ 1 1#1
  let main_v3 : IVec S_ 1 := (fun x v => Host.reduce IntOp.andi x v reducesTo_S128x64x64x64_S_d0_1_2_3 h_S_) main_v2 main_c
  let main_v4 : FVec F S64x4 .f32 := Host.absf main_arg1
  let main_cst_0 : FVec F S_ .f32 := constant S_ .f32 0x7F800000#32
  let main_v5 : FVec F S64x4 .f32 := broadcastInDim S64x4 ![] bcast_S_S64x4 main_cst_0
  let main_v6 : IVec S64x4 1 := cmpf .olt main_v4 main_v5
  let main_c_1 : IVec S_ 1 := constantI S_ 1 1#1
  let main_v7 : IVec S_ 1 := (fun x v => Host.reduce IntOp.andi x v reducesTo_S64x4_S_d0_1 h_S_) main_v6 main_c_1
  let main_v8 : IVec S_ 1 := andi main_v3 main_v7
  let main_v9 : FVec F S1x4 .f32 := Host.absf main_arg2
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_c_3 : IVec S_ 1 := constantI S_ 1 1#1
  let main_v12 : IVec S_ 1 := (fun x v => Host.reduce IntOp.andi x v reducesTo_S1x4_S_d0_1 h_S_) main_v11 main_c_3
  let main_v13 : IVec S_ 1 := andi main_v8 main_v12
  let main_v14 : FVec F S64x4 .f32 := Host.absf main_arg3
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg4 main_v13 main_v16
-- ==== Kernel.lean ====
abbrev S128x64x64x64 : Shape := ⟨4, ![128, 64, 64, 64]⟩
abbrev S64x4 : Shape := ⟨2, ![64, 4]⟩
abbrev S1x4 : Shape := ⟨2, ![1, 4]⟩
abbrev S64x1 : Shape := ⟨2, ![64, 1]⟩
abbrev S128x64x4096 : Shape := ⟨3, ![128, 64, 4096]⟩
abbrev S_ : Shape := ⟨0, ![]⟩
abbrev S8x64x4096 : Shape := ⟨3, ![8, 64, 4096]⟩
abbrev S8x64 : Shape := ⟨2, ![8, 64]⟩
abbrev S8x64x1 : Shape := ⟨3, ![8, 64, 1]⟩
abbrev S1x64x4 : Shape := ⟨3, ![1, 64, 4]⟩
abbrev S8x64x4 : Shape := ⟨3, ![8, 64, 4]⟩
abbrev S8x4 : Shape := ⟨2, ![8, 4]⟩
abbrev S8x1x4 : Shape := ⟨3, ![8, 1, 4]⟩
abbrev S1x1x4 : Shape := ⟨3, ![1, 1, 4]⟩
abbrev S1x64x1 : Shape := ⟨3, ![1, 64, 1]⟩

abbrev nBuf : Space → Nat
  | .hbm => 13
  | .vmem => 8
  | .smem => 0
  | _ => 0

abbrev bufTy : (tb : Table) → Fin (tcTables nBuf tb) → BufTy
  | .hbm, ⟨0, _⟩ => ⟨S128x64x64x64, .f32⟩
  | .hbm, ⟨1, _⟩ => ⟨S64x4, .f32⟩
  | .hbm, ⟨2, _⟩ => ⟨S1x4, .f32⟩
  | .hbm, ⟨3, _⟩ => ⟨S64x4, .f32⟩
  | .hbm, ⟨4, _⟩ => ⟨S64x1, .f32⟩
  | .hbm, ⟨5, _⟩ => ⟨S128x64x4096, .f32⟩
  | .hbm, ⟨6, _⟩ => ⟨S128x64x4096, .bf16⟩
  | .hbm, ⟨7, _⟩ => ⟨S_, .f32⟩
  | .hbm, ⟨8, _⟩ => ⟨S64x4, .f32⟩
  | .hbm, ⟨9, _⟩ => ⟨S64x4, .f32⟩
  | .hbm, ⟨10, _⟩ => ⟨S128x64x4096, .bf16⟩
  | .hbm, ⟨11, _⟩ => ⟨S128x64x4096, .f32⟩
  | .hbm, ⟨12, _⟩ => ⟨S128x64x64x64, .f32⟩
  | .local _ .vmem, ⟨0, _⟩ => ⟨S8x64x4096, .bf16⟩
  | .local _ .vmem, ⟨1, _⟩ => ⟨S8x64x4096, .bf16⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S8x64x4096, .bf16⟩
  | .local _ .vmem, ⟨7, _⟩ => ⟨S8x64x4096, .bf16⟩
  | _, _ => ⟨S128x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x64x64x64_S128x64x4096 : S128x64x64x64.ShapeCasts S128x64x4096
  bitsLt_bf16_f32 : FTy.bits .bf16 < FTy.bits .f32
  bcast_S_S64x4 : S_.BroadcastsInDim S64x4 (![] : Fin 0 → Fin S64x4.rank)
  inb_S8x64x4096_S8x64x4096_0_0_0 : ∀ a, (![0, 0, 0] : Fin 3 → Nat) a + S8x64x4096.size a ≤ S8x64x4096.size a
  h_S8x64x4096 : 0 < S8x64x4096.numel
  shapeCasts_S8x64x4096_S8x64x4096 : S8x64x4096.ShapeCasts S8x64x4096
  reduces_S8x64x4096_S8x64 : S8x64x4096.Reduces [2] S8x64
  shapeCasts_S8x64_S8x64x1 : S8x64.ShapeCasts S8x64x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  shapeCasts_S64x4_S1x64x4 : S64x4.ShapeCasts S1x64x4
  broadcasts_S1x64x4_S8x64x4 : S1x64x4.Broadcasts S8x64x4
  broadcasts_S8x64x1_S8x64x4 : S8x64x1.Broadcasts S8x64x4
  reduces_S8x64x4_S8x4 : S8x64x4.Reduces [1] S8x4
  shapeCasts_S8x4_S8x1x4 : S8x4.ShapeCasts S8x1x4
  inb_S1x4_S1x4_0_0 : ∀ a, (![0, 0] : Fin 2 → Nat) a + S1x4.size a ≤ S1x4.size a
  h_S1x4 : 0 < S1x4.numel
  shapeCasts_S1x4_S1x1x4 : S1x4.ShapeCasts S1x1x4
  broadcasts_S1x1x4_S8x1x4 : S1x1x4.Broadcasts S8x1x4
  broadcasts_S8x1x4_S8x64x4 : S8x1x4.Broadcasts S8x64x4
  reduces_S8x64x4_S8x64 : S8x64x4.Reduces [2] S8x64
  inb_S64x1_S64x1_0_0 : ∀ a, (![0, 0] : Fin 2 → Nat) a + S64x1.size a ≤ S64x1.size a
  h_S64x1 : 0 < S64x1.numel
  shapeCasts_S64x1_S1x64x1 : S64x1.ShapeCasts S1x64x1
  broadcasts_S1x64x1_S8x64x1 : S1x64x1.Broadcasts S8x64x1
  broadcasts_S8x64x1_S8x64x4096 : S8x64x1.Broadcasts S8x64x4096
  packedbf16_S8x64x4096_S8x64x4096_0_0_0 : (Rect.unit (s := S8x64x4096) ![0, 0, 0] S8x64x4096.size inb_S8x64x4096_S8x64x4096_0_0_0).PackedRows (EltTy.packing .bf16)
  shapeCasts_S128x64x4096_S128x64x64x64 : S128x64x4096.ShapeCasts S128x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x4096.size a ≤ S128x64x4096.size a
  hwx0_0 : ∀ i : grid0.Coords, EltTy.bits .bf16 = 32 ∨ (Rect.block (s := S128x64x4096) S8x64x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64x4096.size a ≤ S128x64x4096.size a
  hwx0_5 : ∀ i : grid0.Coords, EltTy.bits .bf16 = 32 ∨ (Rect.block (s := S128x64x4096) S8x64x4096.size (cc0_transform_5 i) (hinb0_5 i)).WholeWords (EltTy.packing .bf16)

variable [Facts₀]

abbrev win0_0 : Pipeline.Window sig grid0 :=
  Pipeline.Window.ofSpec (Memref.whole main_v1) S8x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x64x64x64 : Shape := ⟨4, ![128, 64, 64, 64]⟩
abbrev S64x4 : Shape := ⟨2, ![64, 4]⟩
abbrev S1x4 : Shape := ⟨2, ![1, 4]⟩
abbrev S64x1 : Shape := ⟨2, ![64, 1]⟩
abbrev S128x64x4096 : Shape := ⟨3, ![128, 64, 4096]⟩
abbrev S1x64x4096 : Shape := ⟨3, ![1, 64, 4096]⟩
abbrev S64x4096 : Shape := ⟨2, ![64, 4096]⟩
abbrev S64 : Shape := ⟨1, ![64]⟩
abbrev S4 : Shape := ⟨1, ![4]⟩

abbrev nBuf : Space → Nat
  | .hbm => 8
  | .vmem => 8
  | .smem => 0
  | _ => 0

abbrev bufTy : (tb : Table) → Fin (tcTables nBuf tb) → BufTy
  | .hbm, ⟨0, _⟩ => ⟨S128x64x64x64, .f32⟩
  | .hbm, ⟨1, _⟩ => ⟨S64x4, .f32⟩
  | .hbm, ⟨2, _⟩ => ⟨S1x4, .f32⟩
  | .hbm, ⟨3, _⟩ => ⟨S64x4, .f32⟩
  | .hbm, ⟨4, _⟩ => ⟨S64x1, .f32⟩
  | .hbm, ⟨5, _⟩ => ⟨S128x64x4096, .f32⟩
  | .hbm, ⟨6, _⟩ => ⟨S128x64x4096, .f32⟩
  | .hbm, ⟨7, _⟩ => ⟨S128x64x64x64, .f32⟩
  | .local _ .vmem, ⟨0, _⟩ => ⟨S1x64x4096, .f32⟩
  | .local _ .vmem, ⟨1, _⟩ => ⟨S1x64x4096, .f32⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S1x64x4096, .f32⟩
  | .local _ .vmem, ⟨7, _⟩ => ⟨S1x64x4096, .f32⟩
  | _, _ => ⟨S128x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x64x64x64_S128x64x4096 : S128x64x64x64.ShapeCasts S128x64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  reduces_S64x4096_S64 : S64x4096.Reduces [1] S64
  shapeCasts_S64_S64x1 : S64.ShapeCasts S64x1
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  inb_S64x1_S64x1_0_0 : ∀ a, (![0, 0] : Fin 2 → Nat) a + S64x1.size a ≤ S64x1.size a
  h_S64x1 : 0 < S64x1.numel
  broadcasts_S64x1_S64x4 : S64x1.Broadcasts S64x4
  reduces_S64x4_S4 : S64x4.Reduces [0] S4
  shapeCasts_S4_S1x4 : S4.ShapeCasts S1x4
  broadcasts_S1x4_S64x4 : S1x4.Broadcasts S64x4
  reduces_S64x4_S64 : S64x4.Reduces [1] S64
  broadcasts_S64x1_S64x4096 : S64x1.Broadcasts S64x4096
  shapeCasts_S64x4096_S1x64x4096 : S64x4096.ShapeCasts S1x64x4096
  shapeCasts_S128x64x4096_S128x64x64x64 : S128x64x4096.ShapeCasts S128x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S128x64x4096.size a
  hwx0_0 : ∀ i : grid0.Coords, EltTy.bits .f32 = 32 ∨ (Rect.block (s := S128x64x4096) S1x64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x4096.size a ≤ S128x64x4096.size a
  hwx0_5 : ∀ i : grid0.Coords, EltTy.bits .f32 = 32 ∨ (Rect.block (s := S128x64x4096) S1x64x4096.size (cc0_transform_5 i) (hinb0_5 i)).WholeWords (EltTy.packing .f32)

variable [Facts₀]

abbrev win0_0 : Pipeline.Window sig grid0 :=
  Pipeline.Window.ofSpec (Memref.whole main_v0) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.GateSpec.lean ====
/-
  Channel attention (squeeze and excite) over the extended reals, as one function.

  For one sample, X : channels × positions.  The pooled value of channel c' is the sum of its positions; a first layer
  mixes the pooled values into R hidden units, adds a bias and clamps below at a floor; a second layer mixes the hidden
  units back to one number per channel, adds a bias and applies the logistic function; the channel is scaled by it:

      out c j = X c j * logistic ((Σ r, W2 c r * max ((Σ c', T c' r) + B1 r) z) + B2 c),

  where T c' r is the contribution of channel c' to hidden unit r.  Two spellings of T occur: the weight already
  multiplied by the reciprocal of the number of positions, times the sum, (w * k) * S; and the weight times the mean,
  w * (S / d).  With k = 1/4096 and d = 4096 they are one number for every extended real w and S, the sum being
  allowed to be infinite: a quotient by a nonzero real is the product with its reciprocal, and the product of extended
  reals is associative and commutative.
-/
import Idealize.ShloMosaic.PureOps.Ideal

noncomputable section

namespace Cert.ChannelGate

open Idealize.ShloMosaic

/-- The word 0x39800000 is the real 1/4096 (2 to the -12, a dyadic: exact). -/
theorem ofBits_inv4096 : Ideal.ofBits .f32 0x39800000#32 = ((1 / 4096 : ℝ) : EReal) := by
  simp [Ideal.ofBits, Ideal.ieee, -EReal.coe_mul]; norm_num

/-- The word 0x45800000 is the real 4096. -/
theorem ofBits_4096 : Ideal.ofBits .f32 0x45800000#32 = ((4096 : ℝ) : EReal) := by
  simp [Ideal.ofBits, Ideal.ieee, -EReal.coe_mul]; norm_num

/-- A weight pre-multiplied by 1/4096, times a sum, is the weight times the sum divided by 4096 — on all extended
    reals. -/
theorem scaled_weight_eq (w S : EReal) :
    (w * Ideal.ofBits .f32 0x39800000#32) * S = w * Ideal.div S (Ideal.ofBits .f32 0x45800000#32) := by
  rw [ofBits_inv4096, ofBits_4096, Ideal.div_coe (by norm_num : (4096 : ℝ) ≠ 0), mul_assoc,
    mul_comm (((1 / 4096 : ℝ) : EReal)) S]

variable {C R L : ℕ}

/-- The gate of channel c: logistic of the second layer applied to the clamped first layer, from the contributions T. -/
def gate (T : Fin C → Fin R → EReal) (B1 : Fin R → EReal) (W2 : Fin C → Fin R → EReal) (B2 : Fin C → EReal)
    (z : EReal) (c : Fin C) : EReal :=
  Ideal.logistic ((∑ r : Fin R, W2 c r * max ((∑ c' : Fin C, T c' r) + B1 r) z) + B2 c)

/-- The gates depend on the contributions only through their values. -/
theorem gate_congr {T T' : Fin C → Fin R → EReal} (h : ∀ c' r, T c' r = T' c' r) (B1 : Fin R → EReal)
    (W2 : Fin C → Fin R → EReal) (B2 : Fin C → EReal) (z : EReal) (c : Fin C) :
    gate T B1 W2 B2 z c = gate T' B1 W2 B2 z c := by
  have e : T = T' := funext fun c' => funext fun r => h c' r
  rw [e]

/-- One sample scaled by its gates, the contributions being (pre-scaled weight) × (sum over the positions). -/
def scaledByWeight (X : Fin C → Fin L → EReal) (W1s : Fin C → Fin R → EReal) (B1 : Fin R → EReal)
    (W2 : Fin C → Fin R → EReal) (B2 : Fin C → EReal) (z : EReal) (c : Fin C) (j : Fin L) : EReal :=
  X c j * gate (fun c' r => W1s c' r * ∑ j' : Fin L, X c' j') B1 W2 B2 z c

/-- One sample scaled by its gates, the contributions being weight × (sum over the positions divided by d). -/
def scaledByMean (X : Fin C → Fin L → EReal) (W1 : Fin C → Fin R → EReal) (B1 : Fin R → EReal)
    (W2 : Fin C → Fin R → EReal) (B2 : Fin C → EReal) (z d : EReal) (c : Fin C) (j : Fin L) : EReal :=
  X c j * gate (fun c' r => W1 c' r * Ideal.div (∑ j' : Fin L, X c' j') d) B1 W2 B2 z c

/-- The two spellings agree when the first layer's weights are pre-multiplied by 1/4096 and the mean divides by 4096. -/
theorem scaledByWeight_eq_scaledByMean (X : Fin C → Fin L → EReal) (W1 : Fin C → Fin R → EReal) (B1 : Fin R → EReal)
    (W2 : Fin C → Fin R → EReal) (B2 : Fin C → EReal) (z : EReal) (c : Fin C) (j : Fin L) :
    scaledByWeight X (fun c' r => W1 c' r * Ideal.ofBits .f32 0x39800000#32) B1 W2 B2 z c j
      = scaledByMean X W1 B1 W2 B2 z (Ideal.ofBits .f32 0x45800000#32) c j := by
  unfold scaledByWeight scaledByMean
  rw [gate_congr (fun c' r => scaled_weight_eq (W1 c' r) (∑ j' : Fin L, X c' j'))]

end Cert.ChannelGate

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.KernelPayload.lean ====
/-
  The kernel's body over the extended reals, read at an entry.

  The body sees a block of 8 samples x : [8, 64, 4096] with the (pre-scaled) first-layer weights [64, 4], the bias row
  [1, 4], the second-layer weights [64, 4] and the bias column [64, 1].  It sums every channel over its positions,
  mixes the 64 sums of a sample into 4 hidden units (a sum over the middle axis of an [8, 64, 4] array), adds the bias
  and clamps at zero, mixes the hidden units back to one number per channel (a sum over the last axis), adds the bias,
  applies the logistic function and multiplies the block by the result along the positions.  Read at (b, c, j) this is
  the gated value of sample b alone.
-/
import proofs.«137794_g2000105309421251_pallasbulk_1306_19_alg».proof.Proof.Gen.KernelIdeal.Skeleton
import proofs.«137794_g2000105309421251_pallasbulk_1306_19_alg».proof.Proof.GateSpec
import proofs.«137794_g2000105309421251_pallasbulk_1306_19_alg».proof.Proof.LibLastAxis
import proofs.«137794_g2000105309421251_pallasbulk_1306_19_alg».proof.Proof.LibSlabLayout
import proofs.«137794_g2000105309421251_pallasbulk_1306_19_alg».proof.Proof.LibPairLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The pooled column of a block of 8 samples, kept as a trailing unit axis and spread over the 4 hidden units: at
    (b, c', r) it is the sum over the positions of sample b's channel c'. -/
theorem pooled_apply (x0 : FVec Ideal S8x64x4096 .bf16) (b : Fin 8) (c' : Fin 64) (r : Fin 4) :
    broadcastTo S8x64x4 (shapeCast S8x64x1 (multiReduction .add [2] S8x64
        (extf .f32 (shapeCast S8x64x4096 x0 shapeCasts_S8x64x4096_S8x64x4096) bitsLt_bf16_f32) 0x00000000#32
        reduces_S8x64x4096_S8x64 (.inl rfl) rfl) shapeCasts_S8x64_S8x64x1) broadcasts_S8x64x1_S8x64x4 (ix3 b c' r)
      = ∑ j' : Fin 4096, x0 (ix3 b c' j') := by
  refine (Cert.SlabLayout.broadcastTo_ab1_abc_apply _ _ b c' r).trans ?_
  refine (Cert.SlabLayout.shapeCast_ab_ab1_apply _ _ b c' 0).trans ?_
  refine (Cert.LastAxis.lastSum_apply _ _ _ _ _ b c').trans ?_
  rw [shapeCast_self]
  rfl

/-- The first layer's bias row [1, 4], given two leading unit axes and spread over the 8 samples: at (b, 0, r) it is
    the bias of hidden unit r. -/
theorem bias1_apply (x2 : FVec Ideal S1x4 .f32) (b : Fin 8) (r : Fin 4) :
    broadcastTo S8x1x4 (shapeCast S1x1x4 x2 shapeCasts_S1x4_S1x1x4) broadcasts_S1x1x4_S8x1x4 (ix3 b (0 : Fin 1) r)
      = x2 (ix2 (0 : Fin 1) r) := by
  refine (Cert.PairLayout.broadcastTo_11c_abc_apply _ _ b (0 : Fin 1) r).trans ?_
  exact shapeCast_ab_1ab_apply x2 _ (0 : Fin 1) (0 : Fin 1) r

/-- The second layer's bias column [64, 1], given a leading unit axis and spread over the 8 samples: at (b, c, 0) it
    is the bias of channel c. -/
theorem bias2_apply (x4 : FVec Ideal S64x1 .f32) (b : Fin 8) (c : Fin 64) :
    broadcastTo S8x64x1 (shapeCast S1x64x1 x4 shapeCasts_S64x1_S1x64x1) broadcasts_S1x64x1_S8x64x1 (ix3 b c (0 : Fin 1))
      = x4 (ix2 c (0 : Fin 1)) := by
  refine (Cert.PairLayout.broadcastTo_1bc_abc_apply _ _ b c (0 : Fin 1)).trans ?_
  exact shapeCast_ab_1ab_apply x4 _ (0 : Fin 1) c (0 : Fin 1)

/-- A [64, 4] weight matrix given a leading unit axis and spread over the 8 samples: at (b, c, r) it is the weight
    (c, r). -/
theorem weight_apply (w : FVec Ideal S64x4 .f32) (b : Fin 8) (c : Fin 64) (r : Fin 4) :
    broadcastTo S8x64x4 (shapeCast S1x64x4 w shapeCasts_S64x4_S1x64x4) broadcasts_S1x64x4_S8x64x4 (ix3 b c r)
      = w (ix2 c r) := by
  refine (Cert.PairLayout.broadcastTo_1bc_abc_apply _ _ b c r).trans ?_
  exact shapeCast_ab_1ab_apply w _ (0 : Fin 1) c r

/-- The stored value at (b, c, j): sample b's entry (c, j) times the gate of its channel c, the contributions to the
    hidden units being (weight) × (sum of the channel over the positions). -/
theorem pay_apply (x0 : FVec Ideal S8x64x4096 .bf16) (x1 : FVec Ideal S64x4 .f32) (x2 : FVec Ideal S1x4 .f32)
    (x3 : FVec Ideal S64x4 .f32) (x4 : FVec Ideal S64x1 .f32) (b : Fin 8) (c : Fin 64) (j : Fin 4096) :
    k0_pay1 (F := Ideal) x0 x1 x2 x3 x4 (ix3 b c j)
      = Cert.ChannelGate.scaledByWeight (fun c' j' => x0 (ix3 b c' j')) (fun c' r => x1 (ix2 c' r))
          (fun r => x2 (ix2 (0 : Fin 1) r)) (fun c' r => x3 (ix2 c' r)) (fun c' => x4 (ix2 c' (0 : Fin 1)))
          (Ideal.ofBits .f32 0x00000000#32) c j := by
  unfold k0_pay1 Cert.ChannelGate.scaledByWeight Cert.ChannelGate.gate
  refine (mulf_apply _ _ _).trans ?_
  refine congrArg₂ (· * ·) (congrFun (shapeCast_self x0 _) _) ?_
  refine (Cert.SlabLayout.broadcastTo_ab1_abc_apply _ _ b c j).trans ?_
  show Ideal.logistic _ = _
  refine congrArg Ideal.logistic ?_
  refine (addf_apply _ _ _).trans ?_
  refine congrArg₂ (· + ·) ?_ (bias2_apply x4 b c)
  refine (Cert.SlabLayout.shapeCast_ab_ab1_apply _ _ b c (0 : Fin 1)).trans ?_
  refine (Cert.LastAxis.lastSum_apply _ _ _ _ _ b c).trans ?_
  refine Finset.sum_congr rfl fun r _ => ?_
  refine (mulf_apply _ _ _).trans ?_
  refine congrArg₂ (· * ·) (weight_apply x3 b c r) ?_
  refine (Cert.PairLayout.broadcastTo_a1c_abc_apply _ _ b c r).trans ?_
  refine (maximumf_apply _ _ _).trans ?_
  refine congrArg₂ max ?_ rfl
  refine (addf_apply _ _ _).trans ?_
  refine congrArg₂ (· + ·) ?_ (bias1_apply x2 b r)
  refine (Cert.PairLayout.shapeCast_ac_a1c_apply _ _ b (0 : Fin 1) r).trans ?_
  refine (Cert.SlabLayout.midSum_apply _ _ _ _ _ b r).trans ?_
  refine Finset.sum_congr rfl fun c' _ => ?_
  refine (mulf_apply _ _ _).trans ?_
  refine congrArg₂ (· * ·) ?_ (pooled_apply x0 b c' r)
  rw [shapeCast_self]
  exact weight_apply x1 b c' r

end Cert.KernelIdeal.Payload

end
-- ==== Proof.KernelArray.lean ====
/-
  The kernel's program over the extended reals as one function of its arguments.

  Before the grid the program flattens the two spatial axes of x and multiplies the first layer's weights by a
  literal; at grid point t the body turns samples 8t … 8t + 7 into their gated values, which depend on those samples
  alone, so the 16 blocks are the restrictions of ONE array-wide function and together cover the 128 samples; after
  the grid the spatial axes are restored.
-/
import proofs.«137794_g2000105309421251_pallasbulk_1306_19_alg».proof.Proof.Gen.KernelIdeal.Frame
import proofs.«137794_g2000105309421251_pallasbulk_1306_19_alg».proof.Proof.KernelPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Sample n, channel c, position j of the scaled array: the sample's own channels and positions decide its gates. -/
def gated (x : FVec Ideal S128x64x4096 .bf16) (w1s : FVec Ideal S64x4 .f32) (b1 : FVec Ideal S1x4 .f32)
    (w2 : FVec Ideal S64x4 .f32) (b2 : FVec Ideal S64x1 .f32) (n : Fin 128) (c : Fin 64) (j : Fin 4096) : EReal :=
  Cert.ChannelGate.scaledByWeight (fun c' j' => x (ix3 n c' j')) (fun c' r => w1s (ix2 c' r))
    (fun r => b1 (ix2 (0 : Fin 1) r)) (fun c' r => w2 (ix2 c' r)) (fun c' => b2 (ix2 c' (0 : Fin 1)))
    (Ideal.ofBits .f32 0x00000000#32) c j

/-- The whole scaled array, index by index. -/
def G (x : FVec Ideal S128x64x4096 .bf16) (w1s : FVec Ideal S64x4 .f32) (b1 : FVec Ideal S1x4 .f32)
    (w2 : FVec Ideal S64x4 .f32) (b2 : FVec Ideal S64x1 .f32) : FVec Ideal S128x64x4096 .bf16 :=
  fun i => gated x w1s b1 w2 b2 (i 0) (i 1) (i 2)

/-- The printed index maps over the 16 grid points: the activation's and the result's blocks are the 8 samples
    8t … 8t + 7, whole in channels and positions; the four small operands are whole at every point. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The sample that row b of point t's block is. -/
def row (t : Fin cfg0.N) (b : Fin 8) : Fin 128 :=
  ⟨t.val * 8 + b.val, by have hN : cfg0.N = 16 := N_0; have := t.isLt; have := b.isLt; omega⟩

/-- Point t's block of the activation holds samples 8t … 8t + 7. -/
theorem blk0_read (c : Dev nD) (t : Fin cfg0.N) (b : Fin 8) (c' : Fin 64) (j' : Fin 4096) :
    (iblk m c 0 t : FVec Ideal S8x64x4096 .bf16) (ix3 b c' j')
      = (V m c main_v1 : FVec Ideal S128x64x4096 .bf16) (ix3 (row t b) c' j') := by
  obtain ⟨e0, e1, e2, -⟩ := idx_facts t
  have e : (((cfg0.win 0).blk t).view.emb (ix3 b c' j') : S128x64x4096.Idx) = ix3 (row t b) c' j' := by
    funext a; apply Fin.ext
    match a with
    | ⟨0, _⟩ => show win0_0.index t (0 : Fin 3) * 8 + 1 * b.val = t.val * 8 + b.val; rw [e0]; omega
    | ⟨1, _⟩ => show win0_0.index t (1 : Fin 3) * 64 + 1 * c'.val = c'.val; rw [e1]; omega
    | ⟨2, _⟩ => show win0_0.index t (2 : Fin 3) * 4096 + 1 * j'.val = j'.val; rw [e2]; omega
  show V m c main_v1 (((cfg0.win 0).blk t).view.emb (ix3 b c' j')) = _
  rw [e]

/-- The first layer's (pre-scaled) weights are whole at every point. -/
theorem blk1_read (c : Dev nD) (t : Fin cfg0.N) (c' : Fin 64) (r : Fin 4) :
    (iblk m c 1 t : FVec Ideal S64x4 .f32) (ix2 c' r) = (V m c main_v3 : FVec Ideal S64x4 .f32) (ix2 c' r) := by
  obtain ⟨-, -, -, -, -, -, e0, e1, -⟩ := idx_facts t
  have e : (((cfg0.win 1).blk t).view.emb (ix2 c' r) : S64x4.Idx) = ix2 c' r := by
    funext a; apply Fin.ext
    match a with
    | ⟨0, _⟩ => show win0_1.index t (0 : Fin 2) * 64 + 1 * c'.val = c'.val; rw [e0]; omega
    | ⟨1, _⟩ => show win0_1.index t (1 : Fin 2) * 4 + 1 * r.val = r.val; rw [e1]; omega
  show V m c main_v3 (((cfg0.win 1).blk t).view.emb (ix2 c' r)) = _
  rw [e]

/-- The first layer's bias row is whole at every point. -/
theorem blk2_read (c : Dev nD) (t : Fin cfg0.N) (u : Fin 1) (r : Fin 4) :
    (iblk m c 2 t : FVec Ideal S1x4 .f32) (ix2 u r) = (V m c main_arg2 : FVec Ideal S1x4 .f32) (ix2 u r) := by
  obtain ⟨-, -, -, -, -, -, -, -, e0, e1, -⟩ := idx_facts t
  have e : (((cfg0.win 2).blk t).view.emb (ix2 u r) : S1x4.Idx) = ix2 u r := by
    funext a; apply Fin.ext
    match a with
    | ⟨0, _⟩ => show win0_2.index t (0 : Fin 2) * 1 + 1 * u.val = u.val; rw [e0]; omega
    | ⟨1, _⟩ => show win0_2.index t (1 : Fin 2) * 4 + 1 * r.val = r.val; rw [e1]; omega
  show V m c main_arg2 (((cfg0.win 2).blk t).view.emb (ix2 u r)) = _
  rw [e]

/-- The second layer's weights are whole at every point. -/
theorem blk3_read (c : Dev nD) (t : Fin cfg0.N) (c' : Fin 64) (r : Fin 4) :
    (iblk m c 3 t : FVec Ideal S64x4 .f32) (ix2 c' r) = (V m c main_arg3 : FVec Ideal S64x4 .f32) (ix2 c' r) := by
  obtain ⟨-, -, -, -, -, -, -, -, -, -, e0, e1, -⟩ := idx_facts t
  have e : (((cfg0.win 3).blk t).view.emb (ix2 c' r) : S64x4.Idx) = ix2 c' r := by
    funext a; apply Fin.ext
    match a with
    | ⟨0, _⟩ => show win0_3.index t (0 : Fin 2) * 64 + 1 * c'.val = c'.val; rw [e0]; omega
    | ⟨1, _⟩ => show win0_3.index t (1 : Fin 2) * 4 + 1 * r.val = r.val; rw [e1]; omega
  show V m c main_arg3 (((cfg0.win 3).blk t).view.emb (ix2 c' r)) = _
  rw [e]

/-- The second layer's bias column is whole at every point. -/
theorem blk4_read (c : Dev nD) (t : Fin cfg0.N) (c' : Fin 64) (u : Fin 1) :
    (iblk m c 4 t : FVec Ideal S64x1 .f32) (ix2 c' u) = (V m c main_arg4 : FVec Ideal S64x1 .f32) (ix2 c' u) := by
  obtain ⟨-, -, -, -, -, -, -, -, -, -, -, -, e0, e1⟩ := idx_facts t
  have e : (((cfg0.win 4).blk t).view.emb (ix2 c' u) : S64x1.Idx) = ix2 c' u := by
    funext a; apply Fin.ext
    match a with
    | ⟨0, _⟩ => show win0_4.index t (0 : Fin 2) * 64 + 1 * c'.val = c'.val; rw [e0]; omega
    | ⟨1, _⟩ => show win0_4.index t (1 : Fin 2) * 1 + 1 * u.val = u.val; rw [e1]; omega
  show V m c main_arg4 (((cfg0.win 4).blk t).view.emb (ix2 c' u)) = _
  rw [e]

/-- Entry (b, c, j) of point t's result block is entry (8t + b, c, j) of the result array. -/
theorem emb5 (t : Fin cfg0.N) (b : Fin 8) (cc : Fin 64) (j : Fin 4096) :
    (((cfg0.win 5).blk t).view.emb (ix3 b cc j) : S128x64x4096.Idx) = ix3 (row t b) cc j := by
  obtain ⟨-, -, -, e0, e1, e2, -⟩ := idx_facts t
  funext a; apply Fin.ext
  match a with
  | ⟨0, _⟩ => show win0_5.index t (0 : Fin 3) * 8 + 1 * b.val = t.val * 8 + b.val; rw [e0]; omega
  | ⟨1, _⟩ => show win0_5.index t (1 : Fin 3) * 64 + 1 * cc.val = cc.val; rw [e1]; omega
  | ⟨2, _⟩ => show win0_5.index t (2 : Fin 3) * 4096 + 1 * j.val = j.val; rw [e2]; omega

/-- What point t writes back is block t of the scaled array of the operands as the region finds them. -/
theorem flushed_eq (c : Dev nD) (t : Fin cfg0.N) :
    (dats m 0 c).flushed 5 t = ((cfg0.win 5).blk t).view.read (Elt Ideal)
      (G (V m c main_v1) (V m c main_v3) (V m c main_arg2) (V m c main_arg3) (V m c main_arg4)) := by
  show (cfg0.win 5).cut (grid0.coords t) ((dats m 0 c).after 5 t) = _
  rw [after0_5]
  unfold out0_5
  rw [View.canon_unit_zero hz3]
  simp only [View.ld_unit_zero (S := S8x64x4096) hz3, View.ld_unit_zero (S := S64x4) hz2,
    View.ld_unit_zero (S := S1x4) hz2, View.ld_unit_zero (S := S64x1) hz2]
  funext y
  obtain ⟨b, cc, j, rfl⟩ : ∃ (b : Fin 8) (cc : Fin 64) (j : Fin 4096), y = ix3 b cc j := ⟨y 0, y 1, y 2, eq_ix3 y⟩
  show k0_pay1 (iblk m c 0 t) (iblk m c 1 t) (iblk m c 2 t) (iblk m c 3 t) (iblk m c 4 t) (ix3 b cc j)
    = G (V m c main_v1) (V m c main_v3) (V m c main_arg2) (V m c main_arg3) (V m c main_arg4)
        (((cfg0.win 5).blk t).view.emb (ix3 b cc j))
  rw [emb5 t b cc j]
  refine (Cert.KernelIdeal.Payload.pay_apply (iblk m c 0 t) (iblk m c 1 t) (iblk m c 2 t) (iblk m c 3 t) (iblk m c 4 t) b cc j).trans ?_
  have e0 : (fun (c' : Fin 64) (j' : Fin 4096) => (iblk m c 0 t : FVec Ideal S8x64x4096 .bf16) (ix3 b c' j'))
      = fun c' j' => (V m c main_v1 : FVec Ideal S128x64x4096 .bf16) (ix3 (row t b) c' j') :=
    funext fun c' => funext fun j' => blk0_read m c t b c' j'
  have e1 : (fun (c' : Fin 64) (r : Fin 4) => (iblk m c 1 t : FVec Ideal S64x4 .f32) (ix2 c' r))
      = fun c' r => (V m c main_v3 : FVec Ideal S64x4 .f32) (ix2 c' r) :=
    funext fun c' => funext fun r => blk1_read m c t c' r
  have e2 : (fun (r : Fin 4) => (iblk m c 2 t : FVec Ideal S1x4 .f32) (ix2 (0 : Fin 1) r))
      = fun r => (V m c main_arg2 : FVec Ideal S1x4 .f32) (ix2 (0 : Fin 1) r) :=
    funext fun r => blk2_read m c t 0 r
  have e3 : (fun (c' : Fin 64) (r : Fin 4) => (iblk m c 3 t : FVec Ideal S64x4 .f32) (ix2 c' r))
      = fun c' r => (V m c main_arg3 : FVec Ideal S64x4 .f32) (ix2 c' r) :=
    funext fun c' => funext fun r => blk3_read m c t c' r
  have e4 : (fun (c' : Fin 64) => (iblk m c 4 t : FVec Ideal S64x1 .f32) (ix2 c' (0 : Fin 1)))
      = fun c' => (V m c main_arg4 : FVec Ideal S64x1 .f32) (ix2 c' (0 : Fin 1)) :=
    funext fun c' => blk4_read m c t c' 0
  rw [e0, e1, e2, e3, e4]
  rfl

/-- An index of the result array is in point t's block iff each coordinate is in the block's range on its axis. -/
theorem mem_blk (t : Fin cfg0.N) (i : S128x64x4096.Idx) :
    i ∈ ((cfg0.win 5).blk t).view.set ↔ ∀ a : Fin 3, win0_5.index t a * S8x64x4096.size a ≤ (i a).val
      ∧ (i a).val < win0_5.index t a * S8x64x4096.size a + S8x64x4096.size a := by
  show i ∈ ((View.whole main_v4).slice (win0_5.rect t)).set ↔ _
  rw [View.set_slice_whole, Rect.mem_set_unit]
  exact Iff.rfl

/-- Sample n lies in the block of point n / 8. -/
theorem cover (i : S128x64x4096.Idx) :
    ∃ t : Fin cfg0.N, (cfg0.win 5).flush t = true ∧ i ∈ ((cfg0.win 5).blk t).view.set := by
  have hN : cfg0.N = 16 := N_0
  have hi0 : (i 0).val < 128 := (i 0).isLt
  have hi1 : (i 1).val < 64 := (i 1).isLt
  have hi2 : (i 2).val < 4096 := (i 2).isLt
  let t : Fin cfg0.N := ⟨(i 0).val / 8, by omega⟩
  have ht : t.val = (i 0).val / 8 := rfl
  obtain ⟨-, -, -, e0, e1, e2, -⟩ := idx_facts t
  refine ⟨t, flush0_5 t, ?_⟩
  rw [mem_blk]
  intro a
  match a with
  | ⟨0, _⟩ => show win0_5.index t (0 : Fin 3) * 8 ≤ (i 0).val ∧ (i 0).val < win0_5.index t (0 : Fin 3) * 8 + 8; rw [e0, ht]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 4096 ≤ (i 2).val ∧ (i 2).val < win0_5.index t (2 : Fin 3) * 4096 + 4096; rw [e2]; omega

/-- The result array after the region: the scaled array of the operands as the region finds them. -/
theorem final (c : Dev nD) : (dats m 0 c).arrAt 5 cfg0.N
    = G (V m c main_v1) (V m c main_v3) (V m c main_arg2) (V m c main_arg3) (V m c main_arg4) :=
  (dats m 0 c).arrAt_eq_of_cover 5 _ (fun t _ => flushed_eq m c t) cover

/-- The activation the region finds is the argument with its last two axes flattened (the change of format is the
    identity over the extended reals). -/
theorem V_v1 (c : Dev nD) : (V m c main_v1 : FVec Ideal S128x64x4096 .bf16)
    = shapeCast S128x64x4096 (m ((c : Thread nD τ).loc main_arg0) : FVec Ideal S128x64x64x64 .f32)
        shapeCasts_S128x64x64x64_S128x64x4096 := by
  show StableHlo.after hostOps0 (fun b => m (c, b)) (Proc.devRef .tc main_v1) = _
  after_results
  rfl

/-- A weight matrix with every entry multiplied by the literal 0x39800000. -/
def scaledWeights (a1 : FVec Ideal S64x4 .f32) : FVec Ideal S64x4 .f32 :=
  fun i => a1 i * Ideal.ofBits .f32 0x39800000#32

/-- The first layer's weights the region finds are the argument's, each multiplied by the literal 0x39800000. -/
theorem V_v3 (c : Dev nD) : (V m c main_v3 : FVec Ideal S64x4 .f32)
    = scaledWeights (m ((c : Thread nD τ).loc main_arg1)) := by
  show StableHlo.after hostOps0 (fun b => m (c, b)) (Proc.devRef .tc main_v3) = _
  after_results
  rfl

/-- The program's result as a function of its arguments: flatten the two spatial axes, scale every sample's channels
    by their gates (first-layer weights pre-multiplied by the literal), and restore the spatial axes. -/
def result (a0 : FVec Ideal S128x64x64x64 .f32) (a1 : FVec Ideal S64x4 .f32) (a2 : FVec Ideal S1x4 .f32)
    (a3 : FVec Ideal S64x4 .f32) (a4 : FVec Ideal S64x1 .f32) : FVec Ideal S128x64x64x64 .f32 :=
  shapeCast S128x64x64x64
    (G (shapeCast S128x64x4096 a0 shapeCasts_S128x64x64x64_S128x64x4096)
      (scaledWeights a1) a2 a3 a4)
    shapeCasts_S128x64x4096_S128x64x64x64

/-- The program's result buffer after the operations that follow the grid: the final result array with its spatial
    axes restored, which is `result` of the arguments. -/
theorem tail_v6 (c : Dev nD) :
    Pipeline.afterTail₀ cfgs (dats m) 0 (V0 m) [hostOps1] c main_v6
      = result (m ((c : Thread nD τ).loc main_arg0)) (m ((c : Thread nD τ).loc main_arg1))
          (m ((c : Thread nD τ).loc main_arg2)) (m ((c : Thread nD τ).loc main_arg3))
          (m ((c : Thread nD τ).loc main_arg4)) := by
  unfold Pipeline.afterTail₀
  show StableHlo.after hostOps1 _ (Proc.devRef .tc main_v6) = _
  after_results
  have hw : (Pipeline.withArrays (cfgs 0).spec c (V0 m c) (fun w => (dats m 0 c).arrAt w (cfgs 0).N)
      (Proc.devRef .tc main_v4) : FVec Ideal S128x64x4096 .bf16)
      = G (V m c main_v1) (V m c main_v3) (V m c main_arg2) (V m c main_arg3) (V m c main_arg4) :=
    (Pipeline.withArrays_arr spec0 launch0.win.arr_inj c _ _ 5).trans (final m c)
  rw [hw, V_v1, V_v3, V_main_arg2, V_main_arg3, V_main_arg4]
  rfl

/-- The run, read: every weakly fair execution ends with the result at `result` of the arguments and the arguments
    as launched. -/
theorem run : θ_run defs (onTc (τ := τ) (main (F := Ideal))) ⟨m, fun _ => 0, ρ⟩ (fun r => ∀ c : Dev nD,
      r.2.mem ((c.tc : Thread nD τ).loc main_v6)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Whole

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibColumnReduce.lean ====
/-
  Reusable lemmas: reductions down the columns of an [a, b] array, read at an entry.

  A vector.multi_reduction over axis 0 of an [a, b] array leaves a [b] array whose entry q gathers column q:
      <add>       from the zero accumulator:  Σ_p src[p, q],
      <maximumf>  from the accumulator's value:  the fold of max over p of src[p, q].
  Both are read over the extended reals; generic in the extents and the float format.
-/
import Idealize.ShloMosaic.Lib.Pipeline.Value
import Idealize.ShloMosaic.Lib.ValueIdx
import Idealize.ShloMosaic.PureOps.Ideal.Laws

noncomputable section

namespace Cert.ColumnReduce

open Idealize.ShloMosaic Idealize.ShloMosaic.ValueIdx

variable {a b : ℕ}

/-- The source index of a reduction over the columns: the column q with the row p inserted is (p, q). -/
theorem lift_col (h : (⟨2, ![a, b]⟩ : Shape).Reduces [(0 : Fin 2)] ⟨1, ![b]⟩) (q : Fin b) (p : Fin a) :
    h.lift (ix1 q) p = ix2 p q := by
  funext d
  apply Fin.ext
  show h.liftVal (ix1 q) p.val d = (ix2 p q d).val
  unfold Shape.Reduces.liftVal
  match d with
  | ⟨0, _⟩ => rfl
  | ⟨1, _⟩ => rfl

/-- A sum down the columns of an [a, b] array, from the zero accumulator, is at q the sum over p of the entries (p, q). -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.add.neutral φ hφ) (q : Fin b) :
    multiReduction .add [(0 : Fin 2)] ⟨1, ![b]⟩ src acc h hφ hacc (ix1 q) = ∑ p : Fin a, src (ix2 p q) := by
  refine (Ideal.multiReduction_add_single src acc h hφ hacc (ix1 q)).trans ?_
  show ∑ p : Fin a, src (h.lift (ix1 q) p) = _
  exact Finset.sum_congr rfl fun p _ => congrArg src (lift_col h q p)

/-- A running maximum down the columns of an [a, b] array is at q the fold of max, from the accumulator's value, over
    the entries (p, q). -/
theorem colMax_apply {φ : FTy} (src : FVec Ideal ⟨2, ![a, b]⟩ φ) (acc : BitVec φ.bits)
    (h : (⟨2, ![a, b]⟩ : Shape).Reduces [(0 : Fin 2)] ⟨1, ![b]⟩) (hφ : FKind.Formats φ)
    (hacc : acc = FKind.maximumf.neutral φ hφ) (q : Fin b) :
    multiReduction .maximumf [(0 : Fin 2)] ⟨1, ![b]⟩ src acc h hφ hacc (ix1 q)
      = (Finset.univ : Finset (Fin a)).fold max (Ideal.ofBits φ acc) (fun p => src (ix2 p q)) := by
  refine (Ideal.multiReduction_maximumf_single src acc h hφ hacc (ix1 q)).trans ?_
  have e : (src ∘ h.lift (ix1 q)) = fun p => src (ix2 p q) := funext fun p => congrArg src (lift_col h q p)
  show (Finset.univ : Finset (Fin a)).fold max (Ideal.ofBits φ acc) (src ∘ h.lift (ix1 q)) = _
  rw [e]
  rfl

end Cert.ColumnReduce

end
-- ==== Proof.RefPayload.lean ====
/-
  The reference kernel's body over the extended reals, read at an entry.

  The body sees one sample x : [1, 64, 4096] with the first-layer weights [64, 4], the bias row [1, 4], the
  second-layer weights [64, 4] and the bias column [64, 1].  It drops the unit axis, takes the mean of every channel
  over its positions (the sum divided by the literal 4096), mixes the 64 means into 4 hidden units (a sum down the
  columns of a [64, 4] array), adds the bias and clamps at zero, mixes the hidden units back to one number per channel
  (a sum along the rows), adds the bias, applies the logistic function and multiplies the sample by the result along
  the positions.
-/
import proofs.«137794_g2000105309421251_pallasbulk_1306_19_alg».proof.Proof.Gen.ReferenceIdeal.Skeleton
import proofs.«137794_g2000105309421251_pallasbulk_1306_19_alg».proof.Proof.GateSpec
import proofs.«137794_g2000105309421251_pallasbulk_1306_19_alg».proof.Proof.LibSlabLayout
import proofs.«137794_g2000105309421251_pallasbulk_1306_19_alg».proof.Proof.LibKeepdimsColumn
import proofs.«137794_g2000105309421251_pallasbulk_1306_19_alg».proof.Proof.LibColumnReduce
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Payload

open Idealize.ShloMosaic Idealize.ShloMosaic.ValueIdx Cert.ReferenceIdeal Cert.ReferenceIdeal.Gen

/-- The mean column of one sample, kept as a trailing unit axis and spread over the 4 hidden units: at (c', r) it is
    the sum over the positions of channel c' divided by the literal 4096. -/
theorem mean_apply (x0 : FVec Ideal S1x64x4096 .f32) (c' : Fin 64) (r : Fin 4) :
    broadcastTo S64x4 (divf (shapeCast S64x1 (multiReduction .add [1] S64
        (shapeCast S64x4096 x0 shapeCasts_S1x64x4096_S64x4096) 0x00000000#32 reduces_S64x4096_S64 (.inl rfl) rfl)
        shapeCasts_S64_S64x1) (broadcast S64x1 (Scalar.ofBits .f32 0x45800000#32))) broadcasts_S64x1_S64x4 (ix2 c' r)
      = Ideal.div (∑ j' : Fin 4096, x0 (ix3 (0 : Fin 1) c' j')) (Ideal.ofBits .f32 0x45800000#32) := by
  refine (Cert.KeepdimsColumn.broadcastTo_a1_ab_apply _ _ c' r).trans ?_
  refine (divf_apply _ _ _).trans ?_
  refine congrArg₂ Ideal.div ?_ rfl
  refine (Cert.KeepdimsColumn.shapeCast_a_a1_apply _ _ c' (0 : Fin 1)).trans ?_
  refine (Cert.SlabLayout.rowSum_apply _ _ _ _ _ c').trans ?_
  exact Finset.sum_congr rfl fun j' _ => shapeCast_1ab_ab_apply x0 _ c' j'

/-- The stored value at (0, c, j): the sample's entry (c, j) times the gate of its channel c, the contributions to the
    hidden units being (weight) × (mean of the channel over the positions). -/
theorem pay_apply (x0 : FVec Ideal S1x64x4096 .f32) (x1 : FVec Ideal S64x4 .f32) (x2 : FVec Ideal S1x4 .f32)
    (x3 : FVec Ideal S64x4 .f32) (x4 : FVec Ideal S64x1 .f32) (u : Fin 1) (c : Fin 64) (j : Fin 4096) :
    k0_pay1 (F := Ideal) x0 x1 x2 x3 x4 (ix3 u c j)
      = Cert.ChannelGate.scaledByMean (fun c' j' => x0 (ix3 (0 : Fin 1) c' j')) (fun c' r => x1 (ix2 c' r))
          (fun r => x2 (ix2 (0 : Fin 1) r)) (fun c' r => x3 (ix2 c' r)) (fun c' => x4 (ix2 c' (0 : Fin 1)))
          (Ideal.ofBits .f32 0x00000000#32) (Ideal.ofBits .f32 0x45800000#32) c j := by
  unfold k0_pay1 Cert.ChannelGate.scaledByMean Cert.ChannelGate.gate
  refine (shapeCast_ab_1ab_apply _ _ u c j).trans ?_
  refine (mulf_apply _ _ _).trans ?_
  refine congrArg₂ (· * ·) (shapeCast_1ab_ab_apply x0 _ c j) ?_
  refine (Cert.KeepdimsColumn.broadcastTo_a1_ab_apply _ _ c j).trans ?_
  show Ideal.logistic _ = _
  refine congrArg Ideal.logistic ?_
  refine (addf_apply _ _ _).trans ?_
  refine congrArg₂ (· + ·) ?_ rfl
  refine (Cert.KeepdimsColumn.shapeCast_a_a1_apply _ _ c (0 : Fin 1)).trans ?_
  refine (Cert.SlabLayout.rowSum_apply _ _ _ _ _ c).trans ?_
  refine Finset.sum_congr rfl fun r _ => ?_
  refine (mulf_apply _ _ _).trans ?_
  refine congrArg₂ (· * ·) rfl ?_
  refine (broadcastTo_1b_ab_apply _ _ c r).trans ?_
  refine (maximumf_apply _ _ _).trans ?_
  refine congrArg₂ max ?_ rfl
  refine (addf_apply _ _ _).trans ?_
  refine congrArg₂ (· + ·) ?_ rfl
  refine (shapeCast_a_1a_apply _ _ (0 : Fin 1) r).trans ?_
  refine (Cert.ColumnReduce.colSum_apply _ _ _ _ _ r).trans ?_
  refine Finset.sum_congr rfl fun c' _ => ?_
  refine (mulf_apply _ _ _).trans ?_
  exact congrArg₂ (· * ·) rfl (mean_apply x0 c' r)

end Cert.ReferenceIdeal.Payload

end
-- ==== Proof.RefArray.lean ====
/-
  The reference program over the extended reals as one function of its arguments.

  Before the grid the program flattens the two spatial axes of x; at grid point t the body turns sample t into its
  gated values, which depend on that sample alone, so the 128 blocks are the restrictions of ONE array-wide function
  and together cover the array; after the grid the spatial axes are restored.
-/
import proofs.«137794_g2000105309421251_pallasbulk_1306_19_alg».proof.Proof.Gen.ReferenceIdeal.Frame
import proofs.«137794_g2000105309421251_pallasbulk_1306_19_alg».proof.Proof.RefPayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.Whole

open Cert.ReferenceIdeal Cert.ReferenceIdeal.Gen

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- Sample n, channel c, position j of the scaled array: the sample's own channels and positions decide its gates,
    through the channel means (sums divided by the literal 4096). -/
def gated (x : FVec Ideal S128x64x4096 .f32) (w1 : FVec Ideal S64x4 .f32) (b1 : FVec Ideal S1x4 .f32)
    (w2 : FVec Ideal S64x4 .f32) (b2 : FVec Ideal S64x1 .f32) (n : Fin 128) (c : Fin 64) (j : Fin 4096) : EReal :=
  Cert.ChannelGate.scaledByMean (fun c' j' => x (ix3 n c' j')) (fun c' r => w1 (ix2 c' r))
    (fun r => b1 (ix2 (0 : Fin 1) r)) (fun c' r => w2 (ix2 c' r)) (fun c' => b2 (ix2 c' (0 : Fin 1)))
    (Ideal.ofBits .f32 0x00000000#32) (Ideal.ofBits .f32 0x45800000#32) c j

/-- The whole scaled array, index by index. -/
def G (x : FVec Ideal S128x64x4096 .f32) (w1 : FVec Ideal S64x4 .f32) (b1 : FVec Ideal S1x4 .f32)
    (w2 : FVec Ideal S64x4 .f32) (b2 : FVec Ideal S64x1 .f32) : FVec Ideal S128x64x4096 .f32 :=
  fun i => gated x w1 b1 w2 b2 (i 0) (i 1) (i 2)

/-- The printed index maps over the 128 grid points: the activation's and the result's block at point t is sample t,
    whole in channels and positions; the four small operands are whole at every point. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The sample that point t's block is. -/
def row (t : Fin cfg0.N) : Fin 128 :=
  ⟨t.val, by have hN : cfg0.N = 128 := N_0; have := t.isLt; omega⟩

/-- Point t's block of the activation is sample t. -/
theorem blk0_read (c : Dev nD) (t : Fin cfg0.N) (u : Fin 1) (c' : Fin 64) (j' : Fin 4096) :
    (iblk m c 0 t : FVec Ideal S1x64x4096 .f32) (ix3 u c' j')
      = (V m c main_v0 : FVec Ideal S128x64x4096 .f32) (ix3 (row t) c' j') := by
  obtain ⟨e0, e1, e2, -⟩ := idx_facts t
  have hu := u.isLt
  have e : (((cfg0.win 0).blk t).view.emb (ix3 u c' j') : S128x64x4096.Idx) = ix3 (row t) c' j' := by
    funext a; apply Fin.ext
    match a with
    | ⟨0, _⟩ => show win0_0.index t (0 : Fin 3) * 1 + 1 * u.val = t.val; rw [e0]; omega
    | ⟨1, _⟩ => show win0_0.index t (1 : Fin 3) * 64 + 1 * c'.val = c'.val; rw [e1]; omega
    | ⟨2, _⟩ => show win0_0.index t (2 : Fin 3) * 4096 + 1 * j'.val = j'.val; rw [e2]; omega
  show V m c main_v0 (((cfg0.win 0).blk t).view.emb (ix3 u c' j')) = _
  rw [e]

/-- The first layer's weights are whole at every point. -/
theorem blk1_read (c : Dev nD) (t : Fin cfg0.N) (c' : Fin 64) (r : Fin 4) :
    (iblk m c 1 t : FVec Ideal S64x4 .f32) (ix2 c' r) = (V m c main_arg1 : FVec Ideal S64x4 .f32) (ix2 c' r) := by
  obtain ⟨-, -, -, -, -, -, e0, e1, -⟩ := idx_facts t
  have e : (((cfg0.win 1).blk t).view.emb (ix2 c' r) : S64x4.Idx) = ix2 c' r := by
    funext a; apply Fin.ext
    match a with
    | ⟨0, _⟩ => show win0_1.index t (0 : Fin 2) * 64 + 1 * c'.val = c'.val; rw [e0]; omega
    | ⟨1, _⟩ => show win0_1.index t (1 : Fin 2) * 4 + 1 * r.val = r.val; rw [e1]; omega
  show V m c main_arg1 (((cfg0.win 1).blk t).view.emb (ix2 c' r)) = _
  rw [e]

/-- The first layer's bias row is whole at every point. -/
theorem blk2_read (c : Dev nD) (t : Fin cfg0.N) (u : Fin 1) (r : Fin 4) :
    (iblk m c 2 t : FVec Ideal S1x4 .f32) (ix2 u r) = (V m c main_arg2 : FVec Ideal S1x4 .f32) (ix2 u r) := by
  obtain ⟨-, -, -, -, -, -, -, -, e0, e1, -⟩ := idx_facts t
  have e : (((cfg0.win 2).blk t).view.emb (ix2 u r) : S1x4.Idx) = ix2 u r := by
    funext a; apply Fin.ext
    match a with
    | ⟨0, _⟩ => show win0_2.index t (0 : Fin 2) * 1 + 1 * u.val = u.val; rw [e0]; omega
    | ⟨1, _⟩ => show win0_2.index t (1 : Fin 2) * 4 + 1 * r.val = r.val; rw [e1]; omega
  show V m c main_arg2 (((cfg0.win 2).blk t).view.emb (ix2 u r)) = _
  rw [e]

/-- The second layer's weights are whole at every point. -/
theorem blk3_read (c : Dev nD) (t : Fin cfg0.N) (c' : Fin 64) (r : Fin 4) :
    (iblk m c 3 t : FVec Ideal S64x4 .f32) (ix2 c' r) = (V m c main_arg3 : FVec Ideal S64x4 .f32) (ix2 c' r) := by
  obtain ⟨-, -, -, -, -, -, -, -, -, -, e0, e1, -⟩ := idx_facts t
  have e : (((cfg0.win 3).blk t).view.emb (ix2 c' r) : S64x4.Idx) = ix2 c' r := by
    funext a; apply Fin.ext
    match a with
    | ⟨0, _⟩ => show win0_3.index t (0 : Fin 2) * 64 + 1 * c'.val = c'.val; rw [e0]; omega
    | ⟨1, _⟩ => show win0_3.index t (1 : Fin 2) * 4 + 1 * r.val = r.val; rw [e1]; omega
  show V m c main_arg3 (((cfg0.win 3).blk t).view.emb (ix2 c' r)) = _
  rw [e]

/-- The second layer's bias column is whole at every point. -/
theorem blk4_read (c : Dev nD) (t : Fin cfg0.N) (c' : Fin 64) (u : Fin 1) :
    (iblk m c 4 t : FVec Ideal S64x1 .f32) (ix2 c' u) = (V m c main_arg4 : FVec Ideal S64x1 .f32) (ix2 c' u) := by
  obtain ⟨-, -, -, -, -, -, -, -, -, -, -, -, e0, e1⟩ := idx_facts t
  have e : (((cfg0.win 4).blk t).view.emb (ix2 c' u) : S64x1.Idx) = ix2 c' u := by
    funext a; apply Fin.ext
    match a with
    | ⟨0, _⟩ => show win0_4.index t (0 : Fin 2) * 64 + 1 * c'.val = c'.val; rw [e0]; omega
    | ⟨1, _⟩ => show win0_4.index t (1 : Fin 2) * 1 + 1 * u.val = u.val; rw [e1]; omega
  show V m c main_arg4 (((cfg0.win 4).blk t).view.emb (ix2 c' u)) = _
  rw [e]

/-- Entry (0, c, j) of point t's result block is entry (t, c, j) of the result array. -/
theorem emb5 (t : Fin cfg0.N) (u : Fin 1) (cc : Fin 64) (j : Fin 4096) :
    (((cfg0.win 5).blk t).view.emb (ix3 u cc j) : S128x64x4096.Idx) = ix3 (row t) cc j := by
  obtain ⟨-, -, -, e0, e1, e2, -⟩ := idx_facts t
  have hu := u.isLt
  funext a; apply Fin.ext
  match a with
  | ⟨0, _⟩ => show win0_5.index t (0 : Fin 3) * 1 + 1 * u.val = t.val; rw [e0]; omega
  | ⟨1, _⟩ => show win0_5.index t (1 : Fin 3) * 64 + 1 * cc.val = cc.val; rw [e1]; omega
  | ⟨2, _⟩ => show win0_5.index t (2 : Fin 3) * 4096 + 1 * j.val = j.val; rw [e2]; omega

/-- What point t writes back is block t of the scaled array of the operands as the region finds them. -/
theorem flushed_eq (c : Dev nD) (t : Fin cfg0.N) :
    (dats m 0 c).flushed 5 t = ((cfg0.win 5).blk t).view.read (Elt Ideal)
      (G (V m c main_v0) (V m c main_arg1) (V m c main_arg2) (V m c main_arg3) (V m c main_arg4)) := by
  show (cfg0.win 5).cut (grid0.coords t) ((dats m 0 c).after 5 t) = _
  rw [after0_5]
  unfold out0_5
  rw [View.canon_unit_zero hz3]
  simp only [View.ld_unit_zero (S := S1x64x4096) hz3, View.ld_unit_zero (S := S64x4) hz2,
    View.ld_unit_zero (S := S1x4) hz2, View.ld_unit_zero (S := S64x1) hz2]
  funext y
  obtain ⟨u, cc, j, rfl⟩ : ∃ (u : Fin 1) (cc : Fin 64) (j : Fin 4096), y = ix3 u cc j := ⟨y 0, y 1, y 2, eq_ix3 y⟩
  show k0_pay1 (iblk m c 0 t) (iblk m c 1 t) (iblk m c 2 t) (iblk m c 3 t) (iblk m c 4 t) (ix3 u cc j)
    = G (V m c main_v0) (V m c main_arg1) (V m c main_arg2) (V m c main_arg3) (V m c main_arg4)
        (((cfg0.win 5).blk t).view.emb (ix3 u cc j))
  rw [emb5 t u cc j]
  refine (Cert.ReferenceIdeal.Payload.pay_apply (iblk m c 0 t) (iblk m c 1 t) (iblk m c 2 t) (iblk m c 3 t) (iblk m c 4 t) u cc j).trans ?_
  have e0 : (fun (c' : Fin 64) (j' : Fin 4096) => (iblk m c 0 t : FVec Ideal S1x64x4096 .f32) (ix3 (0 : Fin 1) c' j'))
      = fun c' j' => (V m c main_v0 : FVec Ideal S128x64x4096 .f32) (ix3 (row t) c' j') :=
    funext fun c' => funext fun j' => blk0_read m c t 0 c' j'
  have e1 : (fun (c' : Fin 64) (r : Fin 4) => (iblk m c 1 t : FVec Ideal S64x4 .f32) (ix2 c' r))
      = fun c' r => (V m c main_arg1 : FVec Ideal S64x4 .f32) (ix2 c' r) :=
    funext fun c' => funext fun r => blk1_read m c t c' r
  have e2 : (fun (r : Fin 4) => (iblk m c 2 t : FVec Ideal S1x4 .f32) (ix2 (0 : Fin 1) r))
      = fun r => (V m c main_arg2 : FVec Ideal S1x4 .f32) (ix2 (0 : Fin 1) r) :=
    funext fun r => blk2_read m c t 0 r
  have e3 : (fun (c' : Fin 64) (r : Fin 4) => (iblk m c 3 t : FVec Ideal S64x4 .f32) (ix2 c' r))
      = fun c' r => (V m c main_arg3 : FVec Ideal S64x4 .f32) (ix2 c' r) :=
    funext fun c' => funext fun r => blk3_read m c t c' r
  have e4 : (fun (c' : Fin 64) => (iblk m c 4 t : FVec Ideal S64x1 .f32) (ix2 c' (0 : Fin 1)))
      = fun c' => (V m c main_arg4 : FVec Ideal S64x1 .f32) (ix2 c' (0 : Fin 1)) :=
    funext fun c' => blk4_read m c t c' 0
  rw [e0, e1, e2, e3, e4]
  rfl

/-- An index of the result array is in point t's block iff each coordinate is in the block's range on its axis. -/
theorem mem_blk (t : Fin cfg0.N) (i : S128x64x4096.Idx) :
    i ∈ ((cfg0.win 5).blk t).view.set ↔ ∀ a : Fin 3, win0_5.index t a * S1x64x4096.size a ≤ (i a).val
      ∧ (i a).val < win0_5.index t a * S1x64x4096.size a + S1x64x4096.size a := by
  show i ∈ ((View.whole main_v1).slice (win0_5.rect t)).set ↔ _
  rw [View.set_slice_whole, Rect.mem_set_unit]
  exact Iff.rfl

/-- Sample n is the block of point n. -/
theorem cover (i : S128x64x4096.Idx) :
    ∃ t : Fin cfg0.N, (cfg0.win 5).flush t = true ∧ i ∈ ((cfg0.win 5).blk t).view.set := by
  have hN : cfg0.N = 128 := N_0
  have hi0 : (i 0).val < 128 := (i 0).isLt
  have hi1 : (i 1).val < 64 := (i 1).isLt
  have hi2 : (i 2).val < 4096 := (i 2).isLt
  let t : Fin cfg0.N := ⟨(i 0).val, by omega⟩
  have ht : t.val = (i 0).val := rfl
  obtain ⟨-, -, -, e0, e1, e2, -⟩ := idx_facts t
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 64 ≤ (i 1).val ∧ (i 1).val < win0_5.index t (1 : Fin 3) * 64 + 64; rw [e1]; omega
  | ⟨2, _⟩ => show win0_5.index t (2 : Fin 3) * 4096 ≤ (i 2).val ∧ (i 2).val < win0_5.index t (2 : Fin 3) * 4096 + 4096; rw [e2]; omega

/-- The result array after the region: the scaled array of the operands as the region finds them. -/
theorem final (c : Dev nD) : (dats m 0 c).arrAt 5 cfg0.N
    = G (V m c main_v0) (V m c main_arg1) (V m c main_arg2) (V m c main_arg3) (V m c main_arg4) :=
  (dats m 0 c).arrAt_eq_of_cover 5 _ (fun t _ => flushed_eq m c t) cover

/-- The activation the region finds is the argument with its last two axes flattened. -/
theorem V_v0 (c : Dev nD) : (V m c main_v0 : FVec Ideal S128x64x4096 .f32)
    = shapeCast S128x64x4096 (m ((c : Thread nD τ).loc main_arg0) : FVec Ideal S128x64x64x64 .f32)
        shapeCasts_S128x64x64x64_S128x64x4096 := by
  show StableHlo.after hostOps0 (fun b => m (c, b)) (Proc.devRef .tc main_v0) = _
  after_results
  rfl

/-- The program's result as a function of its arguments: flatten the two spatial axes, scale every sample's channels
    by their gates, and restore the spatial axes. -/
def result (a0 : FVec Ideal S128x64x64x64 .f32) (a1 : FVec Ideal S64x4 .f32) (a2 : FVec Ideal S1x4 .f32)
    (a3 : FVec Ideal S64x4 .f32) (a4 : FVec Ideal S64x1 .f32) : FVec Ideal S128x64x64x64 .f32 :=
  shapeCast S128x64x64x64
    (G (shapeCast S128x64x4096 a0 shapeCasts_S128x64x64x64_S128x64x4096) a1 a2 a3 a4)
    shapeCasts_S128x64x4096_S128x64x64x64

/-- The program's result buffer after the operation that follows the grid: the final result array with its spatial
    axes restored, which is `result` of the arguments. -/
theorem tail_v2 (c : Dev nD) :
    Pipeline.afterTail₀ cfgs (dats m) 0 (V0 m) [hostOps1] c main_v2
      = result (m ((c : Thread nD τ).loc main_arg0)) (m ((c : Thread nD τ).loc main_arg1))
          (m ((c : Thread nD τ).loc main_arg2)) (m ((c : Thread nD τ).loc main_arg3))
          (m ((c : Thread nD τ).loc main_arg4)) := by
  unfold Pipeline.afterTail₀
  show StableHlo.after hostOps1 _ (Proc.devRef .tc main_v2) = _
  after_results
  have hw : (Pipeline.withArrays (cfgs 0).spec c (V0 m c) (fun w => (dats m 0 c).arrAt w (cfgs 0).N)
      (Proc.devRef .tc main_v1) : FVec Ideal S128x64x4096 .f32)
      = G (V m c main_v0) (V m c main_arg1) (V m c main_arg2) (V m c main_arg3) (V m c main_arg4) :=
    (Pipeline.withArrays_arr spec0 launch0.win.arr_inj c _ _ 5).trans (final m c)
  rw [hw, V_v0, V_main_arg1, V_main_arg2, V_main_arg3, V_main_arg4]
  rfl

/-- The run, read: every weakly fair execution ends with the result at `result` of the arguments and the arguments
    as launched. -/
theorem run : θ_run defs (onTc (τ := τ) (main (F := Ideal))) ⟨m, fun _ => 0, ρ⟩ (fun r => ∀ c : Dev nD,
      r.2.mem ((c.tc : Thread nD τ).loc main_v2)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.Whole

end
-- ==== Proof.lean ====
/-
  Channel attention over the extended reals: the two programs compute one function.

  Both programs flatten the two spatial axes of x : [128, 64, 64, 64] to 4096 positions, and for every sample n scale
  channel c by a gate

      g(n, c) = logistic ((Σ r, w2[c, r] * max ((Σ c', T(n, c', r)) + b1[0, r], 0)) + b2[c, 0]),

  where T(n, c', r) is the contribution of channel c' to hidden unit r, and restore the spatial axes.  The first
  program multiplies the first layer's weights by the literal 1/4096 before its kernel and uses the sum S(n, c') of
  channel c' over the positions: T = (w1[c', r] * (1/4096)) * S(n, c').  The second divides the sum by the literal
  4096 inside its kernel: T = w1[c', r] * (S(n, c') / 4096).  For every extended real w and S these are one number
  (a quotient by a nonzero real is the product with its reciprocal; products of extended reals are associative and
  commutative), so the claim holds for all inputs, the infinite ones included.  The first program works on blocks of 8
  samples at 16 grid points, the second on one sample at 128 grid points; changes of float format are the identity
  over the extended reals.
-/
import proofs.«137794_g2000105309421251_pallasbulk_1306_19_alg».proof.Defs
import proofs.«137794_g2000105309421251_pallasbulk_1306_19_alg».proof.Proof.Gen.Kernel.Frame
import proofs.«137794_g2000105309421251_pallasbulk_1306_19_alg».proof.Proof.Gen.Pre_finite_inputs
import proofs.«137794_g2000105309421251_pallasbulk_1306_19_alg».proof.Proof.KernelArray
import proofs.«137794_g2000105309421251_pallasbulk_1306_19_alg».proof.Proof.RefArray
import Idealize.ShloMosaic.Adequacy
import Idealize.ShloMosaic.Init

noncomputable section

namespace Cert.Proof

open Idealize.ShloMosaic Idealize.SL.Sem Idealize.ShloMosaic.ValueIdx

/-- The two programs' results are one function of the arguments: after the common flattening, entry (n, c, j) is on
    both sides x(n, c, j) times the gate of (n, c), the contributions to the hidden units agreeing term by term. -/
theorem result_eq (a0 : FVec Ideal Cert.KernelIdeal.S128x64x64x64 .f32) (a1 : FVec Ideal Cert.KernelIdeal.S64x4 .f32)
    (a2 : FVec Ideal Cert.KernelIdeal.S1x4 .f32) (a3 : FVec Ideal Cert.KernelIdeal.S64x4 .f32)
    (a4 : FVec Ideal Cert.KernelIdeal.S64x1 .f32) :
    Cert.KernelIdeal.Whole.result a0 a1 a2 a3 a4 = Cert.ReferenceIdeal.Whole.result a0 a1 a2 a3 a4 := by
  unfold Cert.KernelIdeal.Whole.result Cert.ReferenceIdeal.Whole.result
  refine congrArg (fun g => shapeCast Cert.KernelIdeal.S128x64x64x64 g
    Cert.KernelIdeal.Facts₀.shapeCasts_S128x64x4096_S128x64x64x64) ?_
  funext i
  exact Cert.ChannelGate.scaledByWeight_eq_scaledByMean
    (fun c' j' => shapeCast Cert.KernelIdeal.S128x64x4096 a0 Cert.KernelIdeal.Facts₀.shapeCasts_S128x64x64x64_S128x64x4096
      (ix3 (i 0) c' j'))
    (fun c' r => a1 (ix2 c' r)) (fun r => a2 (ix2 (0 : Fin 1) r)) (fun c' r => a3 (ix2 c' r))
    (fun c' => a4 (ix2 c' (0 : Fin 1))) (Ideal.ofBits .f32 0x00000000#32) (i 1) (i 2)

/-- The word-level kernel runs, and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- And the reference's. -/
theorem frame_ri : Cert.frame_ReferenceIdeal := fun m ρ _ => Cert.ReferenceIdeal.Gen.frame m ρ

/-- No operation was rewritten to read the kernel over the extended reals. -/
theorem preserves : Cert.preserves_Kernel_KernelIdeal := trivial

/-- From memories that agree on the arguments both programs end with the same result array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun r h c => ⟨(h c).1.trans ?_, (h c).2⟩)
    (Cert.ReferenceIdeal.Whole.run m' ρ')
  obtain ⟨h0, h1, h2, h3, h4⟩ := hagree c
  rw [h0, h1, h2, h3, h4]
  exact (result_eq _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
